-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x1024 .f32) (main_arg1 : FVec F S4096x1024 .f32) (main_arg2 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x1024 : Shape := ⟨2, ![8192, 1024]⟩
abbrev S4096x1024 : Shape := ⟨2, ![4096, 1024]⟩
abbrev S4096 : Shape := ⟨1, ![4096]⟩
abbrev S_ : Shape := ⟨0, ![]⟩
abbrev S1x4096 : Shape := ⟨2, ![1, 4096]⟩
abbrev S8192x4096 : Shape := ⟨2, ![8192, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 16
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S1x4096, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .bf16⟩
  | .hbm, ⟨15, _⟩ => ⟨S8192x4096, .f32⟩
  | .local _ .vmem, ⟨0, _⟩ => ⟨S256x1024, .f32⟩
  | .local _ .vmem, ⟨1, _⟩ => ⟨S256x1024, .f32⟩
  | .local _ .vmem, ⟨2, _⟩ => ⟨S4096x1024, .bf16⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S4096x1024_S4096_d1 : S4096x1024.ReducesTo [1] S4096
  h_S_ : 0 < S_.numel
  bcast_S_S4096 : S_.BroadcastsInDim S4096 (![] : Fin 0 → Fin S4096.rank)
  shapeCasts_S4096_S1x4096 : S4096.ShapeCasts S1x4096
  bcast_S_S4096x1024 : S_.BroadcastsInDim S4096x1024 (![] : Fin 0 → Fin S4096x1024.rank)
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S256x1024_S256 : S256x1024.Reduces [1] S256
  shapeCasts_S256_S256x1 : S256.ShapeCasts S256x1
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  reducesTo_S4096x1024_S4096_d1 : S4096x1024.ReducesTo [1] S4096
  bcast_S_S8192x4096 : S_.BroadcastsInDim S8192x4096 (![] : Fin 0 → Fin S8192x4096.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x1024_S4096x1024_S8192x4096_1_1_0_0_n_n_wf : DotDims.WF S8192x1024 S4096x1024 S8192x4096 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.Literals.lean ====
/-
  The float literals the two programs spell, as the extended reals their bit patterns denote: zero, two,
  1024 and the two exact powers of two 2⁻⁹ = 1/512 and 2⁻¹⁰ = 1/1024.  All five are dyadic, so each pattern
  denotes exactly the rational written here.
-/
import Idealize.ShloMosaic.PureOps.Ideal

noncomputable section

namespace Cert.SqDist.Lit

open Idealize.ShloMosaic

/-- The pattern of `+0.0` denotes `0`. -/
theorem zero : Ideal.ofBits .f32 0x00000000#32 = 0 := by
  simp [Ideal.ofBits, Ideal.ieee]

/-- The pattern of `2.0` denotes the real `2`. -/
theorem two : Ideal.ofBits .f32 0x40000000#32 = ((2 : ℝ) : EReal) := by
  simp [Ideal.ofBits, Ideal.ieee, -EReal.coe_mul]; norm_num

/-- The pattern of `1024.0` denotes the real `1024`. -/
theorem k1024 : Ideal.ofBits .f32 0x44800000#32 = ((1024 : ℝ) : EReal) := by
  simp [Ideal.ofBits, Ideal.ieee, -EReal.coe_mul]; norm_num

/-- The pattern of `0.001953125` denotes `2⁻⁹ = 1/512`. -/
theorem inv512 : Ideal.ofBits .f32 0x3B000000#32 = ((1 / 512 : ℝ) : EReal) := by
  simp [Ideal.ofBits, Ideal.ieee, -EReal.coe_mul]; norm_num

/-- The pattern of `9.765625E-4` denotes `2⁻¹⁰ = 1/1024`. -/
theorem inv1024 : Ideal.ofBits .f32 0x3A800000#32 = ((1 / 1024 : ℝ) : EReal) := by
  simp [Ideal.ofBits, Ideal.ieee, -EReal.coe_mul]; norm_num

end Cert.SqDist.Lit

end
-- ==== Proof.Law.lean ====
/-
  The two arrangements of the negated mean squared distance plus a bias, and the law that joins them.

  For a row `a` of the left matrix, a row `c` of the right matrix (both indexed by the contracted coordinate) and a
  bias entry `β`, one program computes

      (Σ aₖ·(cₖ·2⁻⁹) − (Σ aₖ²)·2⁻¹⁰) + (β − (0 + Σ cₖ²)/1024)

  and the other

      (−(((0 + Σ aₖ²) − 2·Σ aₖ·cₖ) + (0 + Σ cₖ²)))/1024 + β.

  Over the reals both are (2·Σ aₖcₖ − Σ aₖ² − Σ cₖ²)/1024 + β: the scale 2⁻⁹ moves out of the sum, 2·2⁻¹⁰ = 2⁻⁹, and
  the quotient by 1024 distributes over the three sums.  Distributing needs every entry to be a real number (on the
  extended reals ∞ − ∞ would break it), so the law is stated for real rows and a real bias entry.
-/
import Idealize.ShloMosaic.PureOps.Ideal
import proofs.«130689_j65386582114560_2_alg».proof.Proof.Literals

noncomputable section

namespace Cert.SqDist

open Idealize.ShloMosaic

/-- The entry as the tiled program arranges it: the product taken against the pre-scaled right row, the left row's
    mean square subtracted, and a bias from which the right row's mean square was already subtracted. -/
def kerRow {ι : Type} [Fintype ι] (a c : ι → EReal) (β : EReal) : EReal :=
  ((∑ k, a k * (c k * Ideal.ofBits .f32 0x3B000000#32)) - (∑ k, a k * a k) * Ideal.ofBits .f32 0x3A800000#32)
    + (β - Ideal.div (Ideal.ofBits .f32 0x00000000#32 + ∑ k, c k * c k) (Ideal.ofBits .f32 0x44800000#32))

/-- The entry as the plain program arranges it: the expanded squared distance, negated, divided by the row length,
    plus the bias. -/
def refRow {ι : Type} [Fintype ι] (a c : ι → EReal) (β : EReal) : EReal :=
  Ideal.div (-(((Ideal.ofBits .f32 0x00000000#32 + ∑ k, a k * a k)
      - Ideal.ofBits .f32 0x40000000#32 * ∑ k, a k * c k)
      + (Ideal.ofBits .f32 0x00000000#32 + ∑ k, c k * c k))) (Ideal.ofBits .f32 0x44800000#32) + β

/-- The coercion of a finite real sum is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert x s hx ih => rw [Finset.sum_insert hx, Finset.sum_insert hx, EReal.coe_add, ih]

/-- The law over the reals. -/
theorem real_law {ι : Type} [Fintype ι] (a c : ι → ℝ) (β : ℝ) :
    ((∑ k, a k * (c k * (1 / 512))) - (∑ k, a k * a k) * (1 / 1024)) + (β - (∑ k, c k * c k) * (1 / 1024))
      = (-(((∑ k, a k * a k) - 2 * ∑ k, a k * c k) + ∑ k, c k * c k)) * (1 / 1024) + β := by
  have h : ∑ k, a k * (c k * (1 / 512)) = (∑ k, a k * c k) * (1 / 512) := by
    rw [Finset.sum_mul]; exact Finset.sum_congr rfl fun k _ => by ring
  rw [h]; ring

/-- THE LAW: for real rows and a real bias entry the two arrangements are one extended real. -/
theorem rows_agree {ι : Type} [Fintype ι] (a c : ι → ℝ) (β : ℝ) :
    kerRow (fun k => (a k : EReal)) (fun k => (c k : EReal)) (β : EReal)
      = refRow (fun k => (a k : EReal)) (fun k => (c k : EReal)) (β : EReal) := by
  unfold kerRow refRow
  rw [Lit.zero, Lit.two, Lit.k1024, Lit.inv512, Lit.inv1024]
  simp only [Ideal.div_coe (by norm_num : (1024 : ℝ) ≠ 0), zero_add, ← EReal.coe_mul, ← coe_sum, ← EReal.coe_sub,
    ← EReal.coe_add, ← EReal.coe_neg]
  exact congrArg _ (real_law a c β)

end Cert.SqDist

end
-- ==== Proof.Forms.lean ====
/-
  The two arrangements as whole [8192, 4096] arrays of the three argument arrays, and their agreement.

  Entry (p, o) of either array depends on row `p` of the left matrix `x` ([8192, 1024]), row `o` of the right matrix
  `w` ([4096, 1024]) and entry `o` of the bias ([4096]) only; it is `kerRow` resp. `refRow` of those.  When every entry
  of the three arrays is a real number the two arrays are equal, entry by entry, by the law for real rows.
-/
import Idealize.ShloMosaic.Lib.ValueIdx
import proofs.«130689_j65386582114560_2_alg».proof.Proof.Law

noncomputable section

namespace Cert.SqDist

open Idealize.ShloMosaic Idealize.ShloMosaic.ValueIdx

abbrev SX : Shape := ⟨2, ![8192, 1024]⟩
abbrev SW : Shape := ⟨2, ![4096, 1024]⟩
abbrev SB : Shape := ⟨1, ![4096]⟩
abbrev SO : Shape := ⟨2, ![8192, 4096]⟩

/-- Entry (p, o) as the tiled program arranges it. -/
def kerAt (x : SX.Idx → EReal) (w : SW.Idx → EReal) (b : SB.Idx → EReal) (p : Fin 8192) (o : Fin 4096) : EReal :=
  kerRow (fun k : Fin 1024 => x (ix2 p k)) (fun k : Fin 1024 => w (ix2 o k)) (b (ix1 o))

/-- Entry (p, o) as the plain program arranges it. -/
def refAt (x : SX.Idx → EReal) (w : SW.Idx → EReal) (b : SB.Idx → EReal) (p : Fin 8192) (o : Fin 4096) : EReal :=
  refRow (fun k : Fin 1024 => x (ix2 p k)) (fun k : Fin 1024 => w (ix2 o k)) (b (ix1 o))

/-- The whole array, tiled arrangement. -/
def kerForm (x : SX.Idx → EReal) (w : SW.Idx → EReal) (b : SB.Idx → EReal) : SO.Idx → EReal :=
  fun i => kerAt x w b (i 0) (i 1)

/-- The whole array, plain arrangement. -/
def refForm (x : SX.Idx → EReal) (w : SW.Idx → EReal) (b : SB.Idx → EReal) : SO.Idx → EReal :=
  fun i => refAt x w b (i 0) (i 1)

/-- For arrays of real numbers the two arrangements are one array. -/
theorem forms_agree (x : SX.Idx → EReal) (w : SW.Idx → EReal) (b : SB.Idx → EReal)
    (hx : ∀ i, ∃ r : ℝ, x i = (r : EReal)) (hw : ∀ i, ∃ r : ℝ, w i = (r : EReal))
    (hb : ∀ i, ∃ r : ℝ, b i = (r : EReal)) : kerForm x w b = refForm x w b := by
  choose xr hxr using hx
  choose wr hwr using hw
  choose br hbr using hb
  funext i
  unfold kerForm refForm kerAt refAt
  simp only [hxr, hwr, hbr]
  exact rows_agree (fun k : Fin 1024 => xr (ix2 (i 0) k)) (fun k : Fin 1024 => wr (ix2 (i 1) k)) (br (ix1 (i 1)))

end Cert.SqDist

end
-- ==== Proof.LibRealEntry.lean ====
/-
  An extended real whose absolute value is below +∞ is a real number.

  The test "|x| < +∞" on the extended reals, with the absolute value taken as `max x (−x)` and +∞ spelt as the
  single-precision pattern with all exponent bits set and no fraction bits, holds exactly of the real numbers: at `⊤`
  and at `⊥` the absolute value is `⊤`, which is not below itself.
-/
import Idealize.ShloMosaic.PureOps.Ideal

noncomputable section

namespace Cert.LibRealEntry

open Idealize.ShloMosaic

/-- The single-precision pattern with all exponent bits set and no fraction denotes +∞. -/
theorem ofBits_inf : Ideal.ofBits .f32 0x7F800000#32 = ⊤ := by
  simp [Ideal.ofBits, Ideal.ieee]

/-- An extended real whose absolute value compares below that pattern is a real number. -/
theorem real_of_abs_lt : ∀ x : EReal, Ideal.cmp .olt (max x (-x)) (Ideal.ofBits .f32 0x7F800000#32) = 1#1 →
    ∃ r : ℝ, x = (r : EReal) := by
  intro x
  rw [ofBits_inf]
  induction x using EReal.rec
  · intro h; simp [Ideal.cmp] at h
  · intro _; exact ⟨_, rfl⟩
  · intro h; simp [Ideal.cmp] at h

end Cert.LibRealEntry

end
-- ==== Proof.Finite.lean ====
/-
  From the precondition to real entries.

  The precondition is the conjunction of three tests "every entry's absolute value is below +∞", one per argument
  array.  On the extended reals `max x (−x) < ⊤` fails exactly at `x = ⊤` and `x = ⊥`, so each array that passes its
  test holds real numbers only.
-/
import proofs.«130689_j65386582114560_2_alg».proof.Pre_finite_inputs
import proofs.«130689_j65386582114560_2_alg».proof.Proof.Gen.Pre_finite_inputs
import Idealize.ShloMosaic.Lib.ReduceAll
import Idealize.ShloMosaic.Lib.Affine
import Idealize.ShloMosaic.Lib.ValueIdx
import Idealize.ShloMosaic.PureOps.Ideal
import proofs.«130689_j65386582114560_2_alg».proof.Proof.LibRealEntry

noncomputable section

namespace Cert.Pre_finite_inputs.Real

open Idealize.ShloMosaic Idealize.ShloMosaic.ValueIdx Cert.Pre_finite_inputs Cert.Pre_finite_inputs.Gen

instance : Subsingleton S_.Idx := ⟨fun a b => funext fun d => d.elim0⟩

/-- Arrays that pass the precondition hold real numbers only. -/
theorem reals (x : FVec Ideal S8192x1024 .f32) (w : FVec Ideal S4096x1024 .f32) (b : FVec Ideal S4096 .f32)
    (h : fn (F := Ideal) x w b = fun _ => 1#1) :
    (∀ i, ∃ r : ℝ, x i = (r : EReal)) ∧ (∀ i, ∃ r : ℝ, w i = (r : EReal)) ∧ (∀ i, ∃ r : ℝ, b i = (r : EReal)) := by
  have h0 := congrFun h ix0
  dsimp only [fn] at h0
  obtain ⟨h01, hb⟩ := IntOp.andi_eq_one.mp h0
  obtain ⟨hx, hw⟩ := IntOp.andi_eq_one.mp h01
  exact ⟨fun i => Cert.LibRealEntry.real_of_abs_lt _ (Host.reduce_andi_all _ _ _ _ _ hx i),
    fun i => Cert.LibRealEntry.real_of_abs_lt _ (Host.reduce_andi_all _ _ _ _ _ hw i),
    fun i => Cert.LibRealEntry.real_of_abs_lt _ (Host.reduce_andi_all _ _ _ _ _ hb i)⟩

end Cert.Pre_finite_inputs.Real

end
-- ==== Proof.RefRead.lean ====
/-
  The plain program's result, read entry by entry, is the plain arrangement `refForm` of its three arguments.

  Each of its operations is read at an index through the generated stage lemmas: the two row sums of squares start from
  the zero literal and run over the 1024 entries of a row, the product contracts the last axis of both matrices, the
  column of left sums and the rows of right sums and of biases are spread over the [8192, 4096] result, and the literals
  2 and 1024 are spread over it whole.  What remains is to name the composed index maps: at entry (p, o) the left sums
  read row p, the right sums row o, the bias entry o.
-/
import proofs.«130689_j65386582114560_2_alg».proof.Proof.Gen.ReferenceIdeal.Read
import proofs.«130689_j65386582114560_2_alg».proof.Proof.Forms

noncomputable section

namespace Cert.ReferenceIdeal.Plain

open Cert.ReferenceIdeal Cert.ReferenceIdeal.Gen Cert.ReferenceIdeal.Read Idealize.ShloMosaic Idealize.ShloMosaic.ValueIdx
open Cert.SqDist

/-- The left row's sum of squares at entry (p, o) runs over row p. -/
theorem ix_sqx (p : Fin 8192) (o : Fin 4096) (k : Fin 1024) :
    idx_main_v1 (idx_main_v2 (idx_main_v8 (ix2 p o))) k = ix2 p k :=
  funext fun a => Fin.ext (by match a with | ⟨0, _⟩ => rfl | ⟨1, _⟩ => rfl)

/-- The product at entry (p, o) reads the left matrix along row p, -/
theorem ix_dotl (p : Fin 8192) (o : Fin 4096) (k : Fin 1024) : lidx_main_v5 (ix2 p o) k = ix2 p k :=
  funext fun a => Fin.ext (by match a with | ⟨0, _⟩ => rfl | ⟨1, _⟩ => rfl)

/-- and the right matrix along row o. -/
theorem ix_dotr (p : Fin 8192) (o : Fin 4096) (k : Fin 1024) : ridx_main_v5 (ix2 p o) k = ix2 o k :=
  funext fun a => Fin.ext (by match a with | ⟨0, _⟩ => rfl | ⟨1, _⟩ => rfl)

/-- The right row's sum of squares at entry (p, o) runs over row o. -/
theorem ix_sqw (p : Fin 8192) (o : Fin 4096) (k : Fin 1024) :
    idx_main_v4 (idx_main_v10 (idx_main_v11 (ix2 p o))) k = ix2 o k :=
  funext fun a => Fin.ext (by match a with | ⟨0, _⟩ => rfl | ⟨1, _⟩ => rfl)

/-- The bias at entry (p, o) is its entry o. -/
theorem ix_bias (p : Fin 8192) (o : Fin 4096) : idx_main_v16 (idx_main_v17 (ix2 p o)) = ix1 o :=
  funext fun a => Fin.ext (by match a with | ⟨0, _⟩ => rfl)

/-- THE PLAIN PROGRAM'S RESULT is the plain arrangement of its arguments. -/
theorem result_eq (x0 : FVec Ideal S8192x1024 .f32) (x1 : FVec Ideal S4096x1024 .f32) (x2 : FVec Ideal S4096 .f32) :
    val_main_v18 (F := Ideal) x0 x1 x2 = refForm x0 x1 x2 := by
  funext i
  obtain ⟨p, o, rfl⟩ : ∃ (p : Fin 8192) (o : Fin 4096), i = ix2 p o := ⟨i 0, i 1, eq_ix2 i⟩
  show _ = refAt x0 x1 x2 p o
  unfold refAt refRow
  rw [val_main_v18_apply, val_main_v15_apply, val_main_v13_apply, val_main_v12_apply, val_main_v9_apply,
    val_main_v8_apply, val_main_v2_apply, val_main_v1_apply, val_main_v7_apply, val_main_v6_apply, val_main_v5_apply,
    val_main_v11_apply, val_main_v10_apply, val_main_v4_apply, val_main_v14_apply, val_main_v17_apply,
    val_main_v16_apply]
  simp only [val_main_cst_apply, val_main_cst_0_apply, val_main_cst_1_apply, val_main_cst_2_apply, val_main_v0_apply,
    val_main_v3_apply, ix_sqx, ix_dotl, ix_dotr, ix_sqw, ix_bias, Ideal.addf_def, Ideal.subf_def, Ideal.mulf_def,
    Ideal.hostDivf_def, Ideal.hostNegf_def, Ideal.negf_def, Ideal.ofBits_def]

end Cert.ReferenceIdeal.Plain

end
-- ==== Proof.LibMatmulNT.lean ====
/-
  A matrix product with the right operand contracted on its LAST axis, read at an index, on the extended reals.

  The product of an `[m, k]` matrix with an `[n, k]` matrix (the right operand transposed: `A · Bᵀ`), added into a
  zero accumulator, read at `(p, c)`, is the sum over `x` of the left matrix at `(p, x)` times the right matrix at
  `(c, x)`.  The dimension numbers enter only through the four facts that say which operand coordinate is the row,
  the column and the contracted one.
-/
import Idealize.ShloMosaic.Lib.Pipeline.Value
import Idealize.ShloMosaic.Lib.ValueIdx
import Idealize.ShloMosaic.PureOps.Ideal.Laws

noncomputable section

namespace Cert.LibMatmulNT

open Idealize.ShloMosaic Idealize.ShloMosaic.ValueIdx

/-- `A · Bᵀ` into a zero accumulator, read at `(p, c)`: the sum over the contracted coordinate `x` of the left
    operand at `(p, x)` times the right operand at `(c, x)`. -/
theorem matmul_nt_zero_apply {m k n : ℕ} {φ₁ φ₂ : FTy}
    (d : DotDims ⟨2, ![m, k]⟩ ⟨2, ![n, k]⟩ ⟨2, ![m, n]⟩) (prec : Option ContractPrecision)
    (lhs : FVec Ideal ⟨2, ![m, k]⟩ φ₁) (rhs : FVec Ideal ⟨2, ![n, k]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (j 1).val)
    (hr1 : ∀ (j : (⟨2, ![m, n]⟩ : Shape).Idx) (q : d.contr.Idx), (d.rhsIdx j q 1).val = (q ⟨0, by omega⟩).val)
    (p : Fin m) (c : Fin n) :
    FloatOps.matmul d prec lhs rhs (constant ⟨2, ![m, n]⟩ .f32 0x00000000#32) (ix2 p c)
      = ∑ x : Fin k, lhs (ix2 p x) * rhs (ix2 c x) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 c x := funext fun a => Fin.ext (by
    match a with
    | ⟨0, _⟩ => exact hr0 _ _
    | ⟨1, _⟩ => exact (hr1 _ _).trans hk)
  rw [el, er]

end Cert.LibMatmulNT

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.LibColumn.lean ====
/-
  A column broadcast over many columns, read at an index: an `[a, 1]` array broadcast to `[a, b]` reads, at
  `(p, c)`, the column's entry of row `p`.
-/
import Idealize.ShloMosaic.Lib.Pipeline.Value
import Idealize.ShloMosaic.Lib.ValueIdx

namespace Cert.LibColumn

open Idealize.ShloMosaic Idealize.ShloMosaic.ValueIdx

variable {α : Type}

/-- An `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibUnitColumn.lean ====
/-
  A vector cast to a column, read at an index: an `[a]` array cast to `[a, 1]` reads, at `(i, u)`, the vector's
  entry `i`, whatever the unit coordinate `u`.
-/
import Idealize.ShloMosaic.Lib.Pipeline.Value
import Idealize.ShloMosaic.Lib.ValueIdx

namespace Cert.LibUnitColumn

open Idealize.ShloMosaic Idealize.ShloMosaic.ValueIdx

variable {α : Type}

/-- An `[a]` array cast to `[a, 1]` reads, at `(i, u)`, the operand at `i`: both indices have the row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitColumn
-- ==== Proof.Payload.lean ====
/-
  What one grid point's body stores, read at an entry.

  The body takes a [256, 1024] block `x` of the left matrix, the whole pre-scaled right matrix `w'` ([4096, 1024]) and
  the one-row adjusted bias `e` ([1, 4096]).  At row `p` and column `o` of the [256, 4096] tile it stores

      (Σₖ x[p,k]·w'[o,k] − (Σₖ x[p,k]²)·2⁻¹⁰) + e[0,o]:

  the product contracts the LAST axis of both operands into a zero accumulator; the row's sum of squares is a lane sum
  laid out as a column, scaled, and spread over the 4096 columns; the bias row is spread over the 256 rows.  A change of
  float format is the identity on the extended reals, so the narrowing of `x` before the product disappears.
-/
import proofs.«130689_j65386582114560_2_alg».proof.Proof.Gen.KernelIdeal.Skeleton
import proofs.«130689_j65386582114560_2_alg».proof.Proof.LibMatmulNT
import proofs.«130689_j65386582114560_2_alg».proof.Proof.LibRowOps
import proofs.«130689_j65386582114560_2_alg».proof.Proof.LibColumn
import proofs.«130689_j65386582114560_2_alg».proof.Proof.LibUnitColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The product's dimension record: [256, 1024] × [4096, 1024] → [256, 4096], axis 1 of both contracted. -/
abbrev D : DotDims S256x1024 S4096x1024 S256x4096 := dot_S256x1024_S4096x1024_S256x4096_1_1_0_0_n_n

/-- The left operand's row coordinate is the result's row. -/
theorem lhs0 (j : S256x4096.Idx) (q : D.contr.Idx) : (D.lhsIdx j q 0).val = (j 0).val := by
  unfold DotDims.lhsIdx
  rw [dif_neg (show ¬(0 : Fin S256x1024.rank) ∈ D.lhsBatch by decide),
    dif_pos (show (0 : Fin S256x1024.rank) ∈ D.lhsNonContracting by decide)]
  rfl

/-- The left operand's second coordinate is the contracted one. -/
theorem lhs1 (j : S256x4096.Idx) (q : D.contr.Idx) : (D.lhsIdx j q 1).val = (q ⟨0, by decide⟩).val :=
  D.lhsIdx_val_of_single rfl j q

/-- The right operand's row coordinate is the result's column. -/
theorem rhs0 (j : S256x4096.Idx) (q : D.contr.Idx) : (D.rhsIdx j q 0).val = (j 1).val := by
  unfold DotDims.rhsIdx
  rw [dif_neg (show ¬(0 : Fin S4096x1024.rank) ∈ D.rhsBatch by decide),
    dif_pos (show (0 : Fin S4096x1024.rank) ∈ D.rhsNonContracting by decide)]
  rfl

/-- The right operand's second coordinate is the contracted one. -/
theorem rhs1 (j : S256x4096.Idx) (q : D.contr.Idx) : (D.rhsIdx j q 1).val = (q ⟨0, by decide⟩).val :=
  D.rhsIdx_val_of_single rfl j q

/-- THE STORED TILE AT AN ENTRY: the product against the pre-scaled rows, minus the row's scaled sum of squares, plus
    the adjusted bias of the column. -/
theorem pay_apply (x0 : FVec Ideal S256x1024 .f32) (x1 : FVec Ideal S4096x1024 .bf16) (x2 : FVec Ideal S1x4096 .f32)
    (p : Fin 256) (o : Fin 4096) :
    k0_pay1 (F := Ideal) x0 x1 x2 (ix2 p o)
      = ((∑ k : Fin 1024, x0 (ix2 p k) * x1 (ix2 o k))
          - (∑ k : Fin 1024, x0 (ix2 p k) * x0 (ix2 p k)) * Ideal.ofBits .f32 0x3A800000#32)
        + x2 (ix2 (0 : Fin 1) o) := by
  unfold k0_pay1
  refine congrArg₂ (· + ·) (congrArg₂ (· - ·) ?_ ?_) ?_
  · rw [shapeCast_self]
    exact Cert.LibMatmulNT.matmul_nt_zero_apply D none _ x1 rfl rfl lhs0 lhs1 rhs0 rhs1 p o
  · refine (Cert.LibColumn.broadcastTo_a1_ab_apply _ _ p o).trans ?_
    refine congrArg₂ (· * ·) ?_ rfl
    refine (Cert.LibUnitColumn.shapeCast_a_a1_apply _ _ p 0).trans ?_
    exact Cert.LibRowOps.rowSum_apply (mulf x0 x0) _ _ _ p
  · rw [shapeCast_self]
    exact broadcastTo_1b_ab_apply x2 _ p o

end Cert.KernelIdeal.Body

end
-- ==== Proof.Tile.lean ====
/-
  One stored tile entry is an entry of the tiled arrangement of the whole arrays.

  Suppose the body's three operands are, where the entry looks at them, pieces of the whole arrays: row `p` of the
  left block is row `P` of the left matrix `X`; row `o` of the second operand is row `o` of the right matrix `W` scaled
  by 2⁻⁹; entry (0, o) of the third is the bias `B[o]` minus the right row's sum of squares (from the zero literal) over
  1024.  Then entry (p, o) of what the body stores is entry (P, o) of `kerForm X W B`.
-/
import proofs.«130689_j65386582114560_2_alg».proof.Proof.Gen.KernelIdeal.Frame
import proofs.«130689_j65386582114560_2_alg».proof.Proof.Payload
import proofs.«130689_j65386582114560_2_alg».proof.Proof.Forms
import Idealize.ShloMosaic.Lib.Pipeline.Value

noncomputable section

namespace Cert.KernelIdeal.Body

open Cert.KernelIdeal Cert.KernelIdeal.Gen Idealize.ShloMosaic Idealize.ShloMosaic.ValueIdx Cert.SqDist

/-- The zero offsets of a whole-block access, spelt as the printed vector and as a constant function. -/
theorem hz : (![0, 0] : Fin 2 → Nat) = fun _ => 0 := funext fun a => by fin_cases a <;> rfl

/-- The stored payload at (p, o) is the tiled arrangement at the array index `i` with coordinates (P, o). -/
theorem tile_entry (X : FVec Ideal S8192x1024 .f32) (W : FVec Ideal S4096x1024 .f32) (B : FVec Ideal S4096 .f32)
    (x0 : FVec Ideal S256x1024 .f32) (x1 : FVec Ideal S4096x1024 .bf16) (x2 : FVec Ideal S1x4096 .f32)
    (i : S8192x4096.Idx) (P : Fin 8192) (p : Fin 256) (o : Fin 4096)
    (hP : (i 0).val = P.val) (hO : (i 1).val = o.val)
    (h0 : ∀ k : Fin 1024, x0 (ix2 p k) = X (ix2 P k))
    (h1 : ∀ k : Fin 1024, x1 (ix2 o k) = W (ix2 o k) * Ideal.ofBits .f32 0x3B000000#32)
    (h2 : x2 (ix2 (0 : Fin 1) o) = B (ix1 o)
        - Ideal.div (Ideal.ofBits .f32 0x00000000#32 + ∑ k : Fin 1024, W (ix2 o k) * W (ix2 o k))
            (Ideal.ofBits .f32 0x44800000#32)) :
    k0_pay1 (F := Ideal) x0 x1 x2 (ix2 p o) = kerForm X W B i := by
  obtain rfl : i = ix2 P o := funext fun a => Fin.ext (by
    match a with
    | ⟨0, _⟩ => exact hP
    | ⟨1, _⟩ => exact hO)
  rw [pay_apply]
  show _ = kerAt X W B P o
  unfold kerAt kerRow
  simp only [h0, h1, h2]

/-- The same for what the body leaves in the output's staging buffer: its one store covers the buffer. -/
theorem out_entry (X : FVec Ideal S8192x1024 .f32) (W : FVec Ideal S4096x1024 .f32) (B : FVec Ideal S4096 .f32)
    (x0 : FVec Ideal S256x1024 .f32) (x1 : FVec Ideal S4096x1024 .bf16) (x2 : FVec Ideal S1x4096 .f32)
    (i : S8192x4096.Idx) (P : Fin 8192) (p : Fin 256) (o : Fin 4096)
    (hP : (i 0).val = P.val) (hO : (i 1).val = o.val)
    (h0 : ∀ k : Fin 1024, x0 (ix2 p k) = X (ix2 P k))
    (h1 : ∀ k : Fin 1024, x1 (ix2 o k) = W (ix2 o k) * Ideal.ofBits .f32 0x3B000000#32)
    (h2 : x2 (ix2 (0 : Fin 1) o) = B (ix1 o)
        - Ideal.div (Ideal.ofBits .f32 0x00000000#32 + ∑ k : Fin 1024, W (ix2 o k) * W (ix2 o k))
            (Ideal.ofBits .f32 0x44800000#32)) :
    out0_3 (F := Ideal) x0 x1 x2 (ix2 p o) = kerForm X W B i := by
  unfold out0_3
  rw [View.canon_unit_zero hz]
  simp only [View.ld_unit_zero (S := S256x1024) hz, View.ld_unit_zero (S := S4096x1024) hz,
    View.ld_unit_zero (S := S1x4096) hz]
  exact tile_entry X W B x0 x1 x2 i P p o hP hO h0 h1 h2

end Cert.KernelIdeal.Body

end
-- ==== Proof.LibUnitRow.lean ====
/-
  A vector laid out as a one-row matrix, read at an index.

  A `[a]` vector cast to a `[1, a]` array (a reshape that adds a leading unit axis) read at `(u, j)` is the vector's
  entry `j`: both positions are the `j`-th in row-major order, the row coordinate `u` of the unit axis being 0.
-/
import Idealize.ShloMosaic.Lib.Pipeline.Value
import Idealize.ShloMosaic.Lib.ValueIdx

noncomputable section

namespace Cert.LibUnitRow

open Idealize.ShloMosaic Idealize.ShloMosaic.ValueIdx

/-- An `[a]` vector cast to a `[1, a]` row, read at `(u, j)`: the vector's entry `j`. -/
theorem unitRow_apply {a : ℕ} {α : Type} (x : (⟨1, ![a]⟩ : Shape).Idx → α)
    (h : (⟨1, ![a]⟩ : Shape).ShapeCasts ⟨2, ![1, a]⟩) (u : Fin 1) (j : Fin a) :
    shapeCast ⟨2, ![1, a]⟩ x h (ix2 u j) = x (ix1 j) :=
  shapeCast_apply x h (ix2 u j) (ix1 j) (by
    rw [Shape.rowMajor_val_one, Shape.rowMajor_val_two]
    show j.val = u.val * a + j.val
    have hu : u.val = 0 := by have := u.isLt; omega
    rw [hu]
    omega)

end Cert.LibUnitRow

end
-- ==== Proof.HostPrefix.lean ====
/-
  The two arrays the host prepares before the tiled region, as the region finds them.

  * The right matrix, pre-scaled: every entry of `w` times the literal 2⁻⁹ (then narrowed, which is the identity on the
    extended reals).  At (o, k): `w[o,k] · 2⁻⁹`.
  * The adjusted bias, as one row: the bias minus the right matrix's row sums of squares (each started from the zero
    literal) divided by 1024, laid out as a [1, 4096] row.  At (0, o): `b[o] − (0 + Σₖ w[o,k]²)/1024`.
-/
import proofs.«130689_j65386582114560_2_alg».proof.Proof.Gen.KernelIdeal.Frame
import proofs.«130689_j65386582114560_2_alg».proof.Proof.LibUnitRow
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The left matrix, the right matrix and the bias as launched, on core `c`. -/
abbrev argX (c : Dev nD) : FVec Ideal S8192x1024 .f32 := m ((c : Thread nD τ).loc main_arg0)
abbrev argW (c : Dev nD) : FVec Ideal S4096x1024 .f32 := m ((c : Thread nD τ).loc main_arg1)
abbrev argB (c : Dev nD) : FVec Ideal S4096 .f32 := m ((c : Thread nD τ).loc main_arg2)

/-- The pre-scaled right matrix and the adjusted bias row as the region finds them. -/
abbrev scaled (c : Dev nD) : FVec Ideal S4096x1024 .bf16 := V m c main_v8
abbrev effbias (c : Dev nD) : FVec Ideal S1x4096 .f32 := V m c main_v5

/-- The pre-scaled right matrix as a term of the argument. -/
theorem scaled_eq (c : Dev nD) :
    scaled m c
      = truncf .bf16 (mulf (argW m c)
          (broadcastInDim S4096x1024 ![] bcast_S_S4096x1024 (constant (F := Ideal) S_ .f32 0x3B000000#32)))
          bitsLt_bf16_f32 := by
  dsimp only [scaled, argW, Gen.V, Gen.hostOps0]; after_results

/-- The pre-scaled right matrix at an entry. -/
theorem scaled_apply (c : Dev nD) (o : Fin 4096) (k : Fin 1024) :
    scaled m c (ix2 o k) = argW m c (ix2 o k) * Ideal.ofBits .f32 0x3B000000#32 := by
  rw [scaled_eq]; rfl

/-- The adjusted bias row as a term of the arguments. -/
theorem effbias_eq (c : Dev nD) :
    effbias m c
      = shapeCast S1x4096 (subf (argB m c)
          (Host.divf (Host.reduceAdd (mulf (argW m c) (argW m c))
              (constant (F := Ideal) S_ .f32 0x00000000#32) reducesTo_S4096x1024_S4096_d1 h_S_)
            (broadcastInDim S4096 ![] bcast_S_S4096 (constant (F := Ideal) S_ .f32 0x44800000#32))))
          shapeCasts_S4096_S1x4096 := by
  dsimp only [effbias, argW, argB, Gen.V, Gen.hostOps0]; after_results; try rfl

/-- A [4096, 1024] array summed along its rows from an initial value, at entry `o`: the initial value plus the sum of
    row `o`. -/
theorem rowSum_apply (y : FVec Ideal S4096x1024 .f32) (init : FVec Ideal S_ .f32) (o : Fin 4096) :
    Host.reduceAdd y init reducesTo_S4096x1024_S4096_d1 h_S_ (ix1 o)
      = init (Shape.Idx.first h_S_) + ∑ k : Fin 1024, y (ix2 o k) := by
  simp only [Host.reduceAdd, Ideal.hostReduceAdd_def]
  rw [Ideal.hostReduceAdd_single reducesTo_S4096x1024_S4096_d1 (by decide)]
  refine congrArg (_ + ·) (Finset.sum_congr rfl fun k _ => ?_)
  exact congrArg y (funext fun a => Fin.ext (by match a with | ⟨0, _⟩ => rfl | ⟨1, _⟩ => rfl))

/-- The adjusted bias row at an entry. -/
theorem effbias_apply (c : Dev nD) (o : Fin 4096) :
    effbias m c (ix2 (0 : Fin 1) o)
      = argB m c (ix1 o)
        - Ideal.div (Ideal.ofBits .f32 0x00000000#32 + ∑ k : Fin 1024, argW m c (ix2 o k) * argW m c (ix2 o k))
          (Ideal.ofBits .f32 0x44800000#32) := by
  rw [effbias_eq]
  refine (Cert.LibUnitRow.unitRow_apply _ _ 0 o).trans ?_
  refine congrArg₂ (· - ·) rfl (congrArg₂ Ideal.div ?_ rfl)
  exact rowSum_apply _ _ o

end Cert.KernelIdeal.Prefix

end
-- ==== Proof.KernelValue.lean ====
/-
  From tiles to the array: after the run the result array is the tiled arrangement `kerForm` of the arguments.

  The grid has 32 points.  Point `t` reads rows 256·t … 256·t + 255 of the left matrix, the whole pre-scaled right
  matrix and the whole adjusted bias row, and writes rows 256·t … 256·t + 255 of the result, all 4096 columns.  So what
  point `t` writes back is block `t` of `kerForm`; the 32 row blocks cover the [8192, 4096] array (row `r` lies in block
  `r / 256`), hence the array ends holding `kerForm` of the arguments as launched.
-/
import proofs.«130689_j65386582114560_2_alg».proof.Proof.Gen.KernelIdeal.Value
import proofs.«130689_j65386582114560_2_alg».proof.Proof.Tile
import proofs.«130689_j65386582114560_2_alg».proof.Proof.HostPrefix
import Idealize.ShloMosaic.Lib.Pipeline.Value

noncomputable section

namespace Cert.KernelIdeal.Tiled

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Prefix Cert.KernelIdeal.Body Cert.SqDist

variable (m : (ℓ : Loc nD τ sig) → Buf (Elt Ideal) ℓ) (ρ : Dev nD → PrngReg)

/-- The index maps over the grid: the left matrix's and the result's row block is the point's number, every other block
    coordinate is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the left block at point `t` is row 256·t + p of the left matrix. -/
theorem blk0_apply (c : Dev nD) (t : Fin cfg0.N) (p : Fin 256) (k : Fin 1024) (P : Fin 8192)
    (hP : P.val = t.val * 256 + p.val) :
    (iblk m c 0 t : FVec Ideal S256x1024 .f32) (ix2 p k) = argX m c (ix2 P k) := by
  obtain ⟨e00, e01, -⟩ := idx_facts t
  have e : (((cfg0.win 0).blk t).view.emb (ix2 p k) : S8192x1024.Idx) = ix2 P k := by
    funext a; apply Fin.ext
    match a with
    | ⟨0, _⟩ => show win0_0.index t (0 : Fin 2) * 256 + 1 * p.val = P.val; rw [e00, hP]; omega
    | ⟨1, _⟩ => show win0_0.index t (1 : Fin 2) * 1024 + 1 * k.val = k.val; rw [e01]; omega
  show V m c main_arg0 (((cfg0.win 0).blk t).view.emb (ix2 p k)) = _
  rw [V_main_arg0]
  exact congrArg (argX m c) e

/-- The second operand's block is the whole pre-scaled right matrix. -/
theorem blk1_apply (c : Dev nD) (t : Fin cfg0.N) (o : Fin 4096) (k : Fin 1024) :
    (iblk m c 1 t : FVec Ideal S4096x1024 .bf16) (ix2 o k) = scaled m c (ix2 o k) := by
  obtain ⟨-, -, e10, e11, -⟩ := idx_facts t
  have e : (((cfg0.win 1).blk t).view.emb (ix2 o k) : S4096x1024.Idx) = ix2 o k := by
    funext a; apply Fin.ext
    match a with
    | ⟨0, _⟩ => show win0_1.index t (0 : Fin 2) * 4096 + 1 * o.val = o.val; rw [e10]; omega
    | ⟨1, _⟩ => show win0_1.index t (1 : Fin 2) * 1024 + 1 * k.val = k.val; rw [e11]; omega
  show V m c main_v8 (((cfg0.win 1).blk t).view.emb (ix2 o k)) = _
  exact congrArg (scaled m c) e

/-- The third operand's block is the whole adjusted bias row. -/
theorem blk2_apply (c : Dev nD) (t : Fin cfg0.N) (o : Fin 4096) :
    (iblk m c 2 t : FVec Ideal S1x4096 .f32) (ix2 (0 : Fin 1) o) = effbias m c (ix2 (0 : Fin 1) o) := by
  obtain ⟨-, -, -, -, e20, e21, -⟩ := idx_facts t
  have e : (((cfg0.win 2).blk t).view.emb (ix2 (0 : Fin 1) o) : S1x4096.Idx) = ix2 (0 : Fin 1) o := by
    funext a; apply Fin.ext
    match a with
    | ⟨0, _⟩ => show win0_2.index t (0 : Fin 2) * 1 + 1 * 0 = 0; rw [e20]
    | ⟨1, _⟩ => show win0_2.index t (1 : Fin 2) * 4096 + 1 * o.val = o.val; rw [e21]; omega
  show V m c main_v5 (((cfg0.win 2).blk t).view.emb (ix2 (0 : Fin 1) o)) = _
  exact congrArg (effbias m c) e

/-- WHAT POINT `t` WRITES BACK is block `t` of the tiled arrangement of the arguments. -/
theorem flushed_eq (c : Dev nD) (t : Fin cfg0.N) :
    (dats m 0 c).flushed 3 t
      = ((cfg0.win 3).blk t).view.read (Elt Ideal) (kerForm (argX m c) (argW m c) (argB m c)) := by
  rw [Cert.KernelIdeal.Value.flushed3]
  obtain ⟨-, -, -, -, -, -, e30, e31⟩ := idx_facts t
  have ht : t.val < 32 := lt_of_lt_of_eq t.isLt N_0
  funext j
  obtain ⟨p, o, rfl⟩ : ∃ (p : Fin 256) (o : Fin 4096), j = ix2 p o := ⟨j 0, j 1, eq_ix2 j⟩
  have hp : p.val < 256 := p.isLt
  refine out_entry (argX m c) (argW m c) (argB m c) (iblk m c 0 t) (iblk m c 1 t) (iblk m c 2 t)
    (((cfg0.win 3).blk t).view.emb (ix2 p o)) ⟨t.val * 256 + p.val, by omega⟩ p o ?_ ?_
    (fun k => blk0_apply m c t p k _ rfl)
    (fun k => (blk1_apply m c t o k).trans (scaled_apply m c o k))
    ((blk2_apply m c t o).trans (effbias_apply m c o))
  · show win0_3.index t (0 : Fin 2) * 256 + 1 * p.val = t.val * 256 + p.val; rw [e30]; omega
  · show win0_3.index t (1 : Fin 2) * 4096 + 1 * o.val = o.val; rw [e31]; omega

/-- An index of the result array is in point `t`'s block iff each coordinate is in the block's range on its axis. -/
theorem mem_blk (t : Fin cfg0.N) (i : S8192x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v9).slice (win0_3.rect t)).set ↔ _
  rw [View.set_slice_whole, Rect.mem_set_unit]
  exact Iff.rfl

/-- THE COVER: row `r` of the result lies in the block of point `r / 256`. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 32 := N_0
  have hlt : (i 0).val / 256 < cfg0.N := by rw [hN]; omega
  obtain ⟨-, -, -, -, -, -, e30, e31⟩ := idx_facts ⟨(i 0).val / 256, hlt⟩
  refine ⟨⟨(i 0).val / 256, hlt⟩, flush0_3 _, ?_⟩
  rw [mem_blk]
  intro a
  match a with
  | ⟨0, _⟩ =>
    show win0_3.index ⟨(i 0).val / 256, hlt⟩ (0 : Fin 2) * 256 ≤ (i 0).val
      ∧ (i 0).val < win0_3.index ⟨(i 0).val / 256, hlt⟩ (0 : Fin 2) * 256 + 256
    rw [e30]; show (i 0).val / 256 * 256 ≤ (i 0).val ∧ (i 0).val < (i 0).val / 256 * 256 + 256; omega
  | ⟨1, _⟩ =>
    show win0_3.index ⟨(i 0).val / 256, hlt⟩ (1 : Fin 2) * 4096 ≤ (i 1).val
      ∧ (i 1).val < win0_3.index ⟨(i 0).val / 256, hlt⟩ (1 : Fin 2) * 4096 + 4096
    rw [e31]; omega

/-- THE RESULT ARRAY after the run is the tiled arrangement of the arguments as launched. -/
theorem final (c : Dev nD) : (dats m 0 c).arrAt 3 cfg0.N = kerForm (argX m c) (argW m c) (argB m c) :=
  (dats m 0 c).arrAt_eq_of_cover 3 (kerForm (argX m c) (argW m c) (argB m c)) (fun t _ => flushed_eq m c t) cover

/-- The run, read: the result array at the tiled arrangement, the arguments unchanged. -/
theorem run : θ_run defs (onTc (τ := τ) (main (F := Ideal))) ⟨m, fun _ => 0, ρ⟩ fun r => ∀ c : Dev nD,
      r.2.mem ((c : Thread nD τ).loc main_v9) = kerForm (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Tiled

end
-- ==== Proof.lean ====
/-
  The negated mean squared distance plus a bias, tiled against plain: out[b, o] = −meanₖ (x[b,k] − w[o,k])² + bias[o],
  for x of [8192, 1024], w of [4096, 1024], bias of [4096].

  Both programs expand the square.  The plain one computes (−((Σ x² − 2·Σ x·w) + Σ w²))/1024 + bias.  The tiled one
  prepares, before its grid, the right matrix scaled by 2⁻⁹ = 2/1024 and the bias with (Σ w²)/1024 already subtracted;
  each of its 32 grid points then takes 256 rows of x and stores (x·w'ᵀ − (Σ x²)·2⁻¹⁰) + bias' for those rows.  The
  literals 2⁻⁹, 2⁻¹⁰, 2 and 1024 are exact powers of two, so they denote the same rationals on both sides.

  On the extended reals the two arrangements agree exactly when the quotient by 1024 may be distributed over the three
  sums and the scale moved out of the product's sum, which needs every entry to be a real number: this is where the
  precondition (all inputs finite) is used (`Finite`, `Law`, `Forms`).  The tiled side is read off its run block by
  block (`Payload`, `HostPrefix`, `Tile`, `KernelValue`), the plain side off its run stage by stage (`RefRead`).
  Read on the extended reals the tiled program is its own text, no operation replaced, so nothing is owed for that step.
-/
import proofs.«130689_j65386582114560_2_alg».proof.Defs
import proofs.«130689_j65386582114560_2_alg».proof.Proof.Gen.Kernel
import proofs.«130689_j65386582114560_2_alg».proof.Proof.Gen.Kernel.Skeleton
import proofs.«130689_j65386582114560_2_alg».proof.Proof.Gen.Kernel.Launch
import proofs.«130689_j65386582114560_2_alg».proof.Proof.Gen.Kernel.Points
import proofs.«130689_j65386582114560_2_alg».proof.Proof.Gen.Kernel.Frame
import proofs.«130689_j65386582114560_2_alg».proof.Proof.Gen.KernelIdeal
import proofs.«130689_j65386582114560_2_alg».proof.Proof.Gen.KernelIdeal.Skeleton
import proofs.«130689_j65386582114560_2_alg».proof.Proof.Gen.KernelIdeal.Launch
import proofs.«130689_j65386582114560_2_alg».proof.Proof.Gen.KernelIdeal.Points
import proofs.«130689_j65386582114560_2_alg».proof.Proof.Gen.KernelIdeal.Frame
import proofs.«130689_j65386582114560_2_alg».proof.Proof.Gen.ReferenceIdeal
import proofs.«130689_j65386582114560_2_alg».proof.Proof.Gen.Pre_finite_inputs
import proofs.«130689_j65386582114560_2_alg».proof.Proof.Gen.KernelIdeal.Value
import proofs.«130689_j65386582114560_2_alg».proof.Proof.Gen.ReferenceIdeal.Run
import proofs.«130689_j65386582114560_2_alg».proof.Proof.Gen.ReferenceIdeal.Read
import proofs.«130689_j65386582114560_2_alg».proof.Proof.Forms
import proofs.«130689_j65386582114560_2_alg».proof.Proof.Finite
import proofs.«130689_j65386582114560_2_alg».proof.Proof.RefRead
import proofs.«130689_j65386582114560_2_alg».proof.Proof.KernelValue
import Idealize.ShloMosaic.Adequacy
import Idealize.ShloMosaic.Init

noncomputable section

namespace Cert.Proof

open Idealize.ShloMosaic Idealize.SL.Sem Cert.Kernel
open Cert.KernelIdeal.Prefix (argX argW argB)

/-- The word-level tiled program runs and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The plain program runs and leaves its arguments as they were: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was replaced when the tiled program was read on the extended reals. -/
theorem preserves : Cert.preserves_Kernel_KernelIdeal := trivial

/-- From arguments that agree and are finite, both programs end with the plain arrangement of those arguments: the
    plain program by reading its stages, the tiled one because its own arrangement equals the plain one on arrays of
    real numbers. -/
theorem algebraic : Cert.algebraic_KernelIdeal_ReferenceIdeal := by
  intro m ρ m' ρ' hpre hagree
  refine ⟨fun c => Cert.SqDist.refForm (argX m c) (argW m c) (argB m c), ?_, ?_⟩
  · refine (θ_run Cert.KernelIdeal.defs _ _).mono (fun r h c => ⟨(h c).1.trans ?_, (h c).2⟩)
      (Cert.KernelIdeal.Tiled.run m ρ)
    obtain ⟨hx, hw, hb⟩ := Cert.Pre_finite_inputs.Real.reals (argX m c) (argW m c) (argB m c) (hpre c)
    exact Cert.SqDist.forms_agree (argX m c) (argW m c) (argB m c) hx hw hb
  · refine (θ_run Cert.ReferenceIdeal.defs _ _).mono (fun r h c => ⟨?_, (h c).2⟩)
      (Cert.ReferenceIdeal.Value.run (F := Ideal) m' ρ')
    rw [(h c).1, Cert.ReferenceIdeal.Read.val_main_v18_eq, Cert.ReferenceIdeal.Plain.result_eq, (hagree c).1,
      (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
